-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 129
  | .vmem => 10
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call3_v0 : Ref sig .tc := ⟨.hbm, 87, rfl⟩
abbrev main_call3_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v76) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Chain.lean ====
/-
  The graph convolution both programs compute, as named functions of the arguments.

  From the edge list [2, 1600000] take row 0 (sources) and row 1 (destinations), each followed by the 100000 self loops
  0 … 99999: two index vectors s, d of length 1700000. A negative index has the extent 100000 added before it is used to
  gather. The degree of node v is the number of positions e with d(e) = v (a scatter-add of ones into zeros); its weight is
  degree^(-1/2) where the degree is positive and 0 elsewhere; edge e weighs  w(e) = weight(s(e)) · weight(d(e)).
  One layer of width C sends a node matrix h [100000, C] and a bias b [C] to

      out(v, ·) = Σ over e with d(e) = v of  h(s(e), ·) · w(e)   +  b

  (gather the source rows, scale each by its edge's weight, scatter-add into zeros at the destinations, add the bias row).
  The network is  layer64 (rectify (layer128 (x · W1))) · W2  through the second layer: the two programs differ only in
  how the two matrix products are taken, so everything else is carried as these functions and never opened.
-/
import proofs.«138502_j22471268892879_1_alg».proof.Proof.Gen.ReferenceIdeal

noncomputable section

namespace Cert.Gcn

open Idealize.ShloMosaic Idealize.ShloMosaic.TcCoe Idealize.SL.Sem
open Cert.ReferenceIdeal Cert.ReferenceIdeal.Gen

variable {F : FTy → Type} [FloatOps F]

/-- Row 0 of the edge list as a vector: the edges' sources. -/
def edgeRow0 (ei : (⟨S2x1600000, .i32⟩ : BufTy).Contents (Elt F)) : (⟨S1600000, .i32⟩ : BufTy).Contents (Elt F) :=
  (shapeCast _ (extractStridedSlice S1x1600000 ![0, 0] ei slices_S2x1600000_S1x1600000_0_0) shapeCasts_S1x1600000_S1600000)

/-- Row 1 of the edge list as a vector: the edges' destinations. -/
def edgeRow1 (ei : (⟨S2x1600000, .i32⟩ : BufTy).Contents (Elt F)) : (⟨S1600000, .i32⟩ : BufTy).Contents (Elt F) :=
  (shapeCast _ (extractStridedSlice S1x1600000 ![1, 0] ei slices_S2x1600000_S1x1600000_1_0) shapeCasts_S1x1600000_S1600000)

/-- An endpoint vector of the 1600000 edges followed by the self loops 0 … 99999. -/
def withLoops (r : (⟨S1600000, .i32⟩ : BufTy).Contents (Elt F)) : (⟨S1700000, .i32⟩ : BufTy).Contents (Elt F) :=
  concatenate S1700000 0 [⟨S1600000, r⟩, ⟨S100000, (iotaInDim S100000 32 0)⟩] concatenates_S1600000_S100000_S1700000_d0

/-- The sources: row 0 of the edge list, then the self loops. -/
def sources (ei : (⟨S2x1600000, .i32⟩ : BufTy).Contents (Elt F)) : (⟨S1700000, .i32⟩ : BufTy).Contents (Elt F) :=
  withLoops (edgeRow0 ei)

/-- The destinations: row 1 of the edge list, then the self loops. -/
def dests (ei : (⟨S2x1600000, .i32⟩ : BufTy).Contents (Elt F)) : (⟨S1700000, .i32⟩ : BufTy).Contents (Elt F) :=
  withLoops (edgeRow1 ei)

/-- An index vector as the column of gather indices: a negative index has the extent 100000 added. -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The degree of every node: ones scattered into zeros at the destinations. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Where the degree is positive. -/
def positiveDegree (d : (⟨S1700000, .i32⟩ : BufTy).Contents (Elt F)) : (⟨S100000, .i1⟩ : BufTy).Contents (Elt F) :=
  cmpf (F := F) .ogt (degree d) (broadcastInDim S100000 ![] bcast_S_S100000 (constant S_ .f32 0x00000000#32))

/-- degree^(-1/2), as the host's power function gives it. -/
def degreePower (d : (⟨S1700000, .i32⟩ : BufTy).Contents (Elt F)) : (⟨S100000, .f32⟩ : BufTy).Contents (Elt F) :=
  Host.powf (degree d) (broadcastInDim S100000 ![] bcast_S_S100000 (constant S_ .f32 0xBF000000#32))

/-- A node's weight from a mask, the values where the mask holds, and the scalar taken elsewhere. -/
def nodeWeightFrom (pos : (⟨S100000, .i1⟩ : BufTy).Contents (Elt F)) (pw : (⟨S100000, .f32⟩ : BufTy).Contents (Elt F))
    (z : (⟨S_, .f32⟩ : BufTy).Contents (Elt F)) : (⟨S100000, .f32⟩ : BufTy).Contents (Elt F) :=
  select pos pw (broadcastInDim S100000 ![] bcast_S_S100000 (id z))

/-- The weight of every edge from the node weights: its source's times its destination's. -/
def weightFrom (pos : (⟨S100000, .i1⟩ : BufTy).Contents (Elt F)) (pw : (⟨S100000, .f32⟩ : BufTy).Contents (Elt F))
    (z : (⟨S_, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 (nodeWeightFrom pos pw z) (wrapped s)) (Host.gather gather_S100000_S1700000x1_S1700000_n_0_n_n_0_1_1 (nodeWeightFrom pos pw z) (wrapped d))

/-- The weight of every edge: node weight degree^(-1/2) where the degree is positive and 0 elsewhere, the degrees counted
    at the destinations. -/
def edgeWeight (s d : (⟨S1700000, .i32⟩ : BufTy).Contents (Elt F)) : (⟨S1700000, .f32⟩ : BufTy).Contents (Elt F) :=
  weightFrom (positiveDegree d) (degreePower d) (constant S_ .f32 0x00000000#32) s d

/-- One layer of width 128 over sources s, destinations d and edge weights w: weighted source rows summed at the
    destinations, plus the bias row. -/
def layer128 (s d : (⟨S1700000, .i32⟩ : BufTy).Contents (Elt F)) (w : (⟨S1700000, .f32⟩ : BufTy).Contents (Elt F))
    (b : (⟨S128, .f32⟩ : BufTy).Contents (Elt F))
    (h : (⟨S100000x128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrapped s)) (broadcastInDim S1700000x128 ![0, 1] bcast_S1700000x1_S1700000x128_0_1 (broadcastInDim S1700000x1 ![0] bcast_S1700000_S1700000x1_0 w)))) (broadcastInDim S100000x128 ![0, 1] bcast_S1x128_S100000x128_0_1 (broadcastInDim S1x128 ![1] bcast_S128_S1x128_1 b))

/-- Entry by entry the maximum with zero. -/
def rectify (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- One layer of width 64 over sources s, destinations d and edge weights w. -/
def layer64 (s d : (⟨S1700000, .i32⟩ : BufTy).Contents (Elt F)) (w : (⟨S1700000, .f32⟩ : BufTy).Contents (Elt F))
    (b : (⟨S64, .f32⟩ : BufTy).Contents (Elt F))
    (h : (⟨S100000x64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrapped s)) (broadcastInDim S1700000x64 ![0, 1] bcast_S1700000x1_S1700000x64_0_1 (broadcastInDim S1700000x1 ![0] bcast_S1700000_S1700000x1_0 w)))) (broadcastInDim S100000x64 ![0, 1] bcast_S1x64_S100000x64_0_1 (broadcastInDim S1x64 ![1] bcast_S64_S1x64_1 b))

/-- The hidden layer from the first product: the width-128 layer over the edge list, rectified. -/
def hiddenLayer (ei : (⟨S2x1600000, .i32⟩ : BufTy).Contents (Elt F)) (b1 : (⟨S128, .f32⟩ : BufTy).Contents (Elt F))
    (p1 : (⟨S100000x128, .f32⟩ : BufTy).Contents (Elt F)) : (⟨S100000x128, .f32⟩ : BufTy).Contents (Elt F) :=
  rectify (layer128 (sources ei) (dests ei) (edgeWeight (sources ei) (dests ei)) b1 p1)

/-- The output from the second product: the width-64 layer over the edge list. -/
def outputLayer (ei : (⟨S2x1600000, .i32⟩ : BufTy).Contents (Elt F)) (b2 : (⟨S64, .f32⟩ : BufTy).Contents (Elt F))
    (p2 : (⟨S100000x64, .f32⟩ : BufTy).Contents (Elt F)) : (⟨S100000x64, .f32⟩ : BufTy).Contents (Elt F) :=
  layer64 (sources ei) (dests ei) (edgeWeight (sources ei) (dests ei)) b2 p2

end Cert.Gcn

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«138502_j22471268892879_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«138502_j22471268892879_1_alg».proof.Proof.LibMatmulPlain
import proofs.«138502_j22471268892879_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.RefValue.lean ====
/-
  The reference's result as the graph convolution of the two host products.

  The reference's run ends with its result buffer at the composed term of its 123 host operations. Read with the names of
  the graph convolution, that term is the output layer of (the hidden layer of x · W1) · W2, each product taken by the
  host's general dot product; on the extended reals such a product, contracting the left matrix's columns with the right
  one's rows, is the plain matrix product (entry (p, q) the sum over j of a(p, j) · w(j, q)).
-/
import proofs.«138502_j22471268892879_1_alg».proof.Proof.RefRunPatched
import proofs.«138502_j22471268892879_1_alg».proof.Proof.Chain
import proofs.«138502_j22471268892879_1_alg».proof.Proof.LibDenseLayers

noncomputable section

namespace Cert.ReferenceIdeal.RefValue

open Idealize.ShloMosaic Idealize.ShloMosaic.TcCoe Idealize.SL.Sem
open Cert.ReferenceIdeal Cert.ReferenceIdeal.Gen Cert.ReferenceIdeal.ValueP Cert.Gcn Cert.Layers

variable {F : FTy → Type} [FloatOps F]

set_option maxRecDepth 8192 in
/-- The run's composed term is the two layers applied around the two host products: the same operations, named. -/
theorem result_named (m : (ℓ : Loc nD τ sig) → Buf (Elt F) ℓ) (c : Dev nD) :
    res_main_v92 (F := F) m c
      = outputLayer (m ((c.tc : Thread nD τ).loc main_arg1)) (m ((c.tc : Thread nD τ).loc main_arg5))
          (Host.dotGeneral dot_S100000x128_S128x64_S100000x64_1_0_0_1_n_n none
            (hiddenLayer (m ((c.tc : Thread nD τ).loc main_arg1)) (m ((c.tc : Thread nD τ).loc main_arg3))
              (Host.dotGeneral dot_S100000x256_S256x128_S100000x128_1_0_0_1_n_n none
                (m ((c.tc : Thread nD τ).loc main_arg0)) (m ((c.tc : Thread nD τ).loc main_arg2))))
            (m ((c.tc : Thread nD τ).loc main_arg4))) := by
  unfold res_main_v92 outputLayer hiddenLayer layer64 rectify layer128 edgeWeight weightFrom nodeWeightFrom positiveDegree degreePower degree wrapped sources dests withLoops edgeRow0 edgeRow1
  rfl

/-- On the extended reals each host product is the plain matrix product. -/
theorem result_products (m : (ℓ : Loc nD τ sig) → Buf (Elt Ideal) ℓ) (c : Dev nD) :
    res_main_v92 (F := Ideal) m c
      = outputLayer (m ((c.tc : Thread nD τ).loc main_arg1)) (m ((c.tc : Thread nD τ).loc main_arg5))
          (mm (hiddenLayer (m ((c.tc : Thread nD τ).loc main_arg1)) (m ((c.tc : Thread nD τ).loc main_arg3))
              (mm (m ((c.tc : Thread nD τ).loc main_arg0)) (m ((c.tc : Thread nD τ).loc main_arg2))))
            (m ((c.tc : Thread nD τ).loc main_arg4))) := by
  rw [result_named,
    hostMm_eq dot_S100000x256_S256x128_S100000x128_1_0_0_1_n_n dot_S100000x256_S256x128_S100000x128_1_0_0_1_n_n_wf rfl,
    hostMm_eq dot_S100000x128_S128x64_S100000x64_1_0_0_1_n_n dot_S100000x128_S128x64_S100000x64_1_0_0_1_n_n_wf rfl]

end Cert.ReferenceIdeal.RefValue

end
-- ==== Proof.KernelRun.lean ====
/-
  The idealized kernel program's run with its result named.

  The program is eleven segments in a row — three stretches of host operations, the first launch, five more stretches, the
  second launch, a last stretch — and the contents of the device's buffers at each boundary are a fold through them:
  a stretch applies its operations' results, a launch replaces its three arrays by what its write-backs leave. Every
  weakly fair execution terminates with every unscoped buffer at the last boundary's contents; in particular the result
  buffer holds the last stretch's value and the six arguments hold what they were launched with.
-/
import proofs.«138502_j22471268892879_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with every unscoped buffer of every core at
    the last boundary's contents: the launch over the eleven segments, each handing its thread state to the next, and the
    last thread state read against the final memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The same run with the result buffer and the arguments named: the result ends at the last boundary's contents, each
    argument at what it was launched with (no stretch and no launch writes an argument). -/
theorem run_result : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)
    (run_held m ρ)

end Cert.KernelIdeal.WholeRun

end
-- ==== Proof.RegionProduct.lean ====
/-
  What each of the two launches leaves in its result array, on the extended reals.

  A launch walks twenty grid points; point t loads rows 5000·t … 5000·t + 4999 of the left matrix and the whole weight,
  multiplies them into a zero accumulator and writes the 5000 result rows back to the same rows of the result. Entry
  (r, n) of the result is therefore written by point r / 5000 alone and is the sum over k of left(r, k) · weight(k, n):
  the result array is the plain matrix product of the two arrays the launch was entered with. The casts of both
  operands to the narrower float format are the identity on the extended reals, and no finiteness is needed: the
  k-sum is the same sum on both sides.
-/
import proofs.«138502_j22471268892879_1_alg».proof.Proof.Gen.KernelIdeal.Frame
import proofs.«138502_j22471268892879_1_alg».proof.Proof.LibDenseLayers
import Idealize.ShloMosaic.Lib.Pipeline.Value
import Idealize.ShloMosaic.Lib.ValueIdx

set_option maxRecDepth 16384

noncomputable section

namespace Cert.KernelIdeal.Product

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- The two zero offsets of a whole-block access, as the constant function. -/
theorem zeros2 : (![0, 0] : Fin 2 → Nat) = fun _ => 0 := funext fun a => by fin_cases a <;> rfl

/-! ## Region 0: a [5000, 256] row block times the whole [256, 128] weight, twenty blocks down 100000 rows -/

section Region0

/-- The body's stored value is the product of the two loaded blocks: the casts to the narrower format are the identity on
    the extended reals, and a product into the zero accumulator is the 256-term sum. -/
theorem payload0 (x0 : Vec Ideal S5000x256 .f32) (x1 : Vec Ideal S256x128 .f32) : k0_pay1 x0 x1 = mm x0 x1 :=
  tileMm_eq dot_S5000x256_S256x128_S5000x128_1_0_0_1_n_n dot_S5000x256_S256x128_S5000x128_1_0_0_1_n_n_wf rfl
    (truncf .bf16 x0 bitsLt_bf16_f32) x1 bitsLt_bf16_f32

/-- The printed index maps over the grid: point t takes row block t of the left matrix and of the result, and the one
    block of the weight. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the region finds them: row t·5000 + p of the
    result needs row t·5000 + p of the left matrix only, and all of the weight. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x128) zeros2]
  rw [payload0]
  obtain ⟨e0, e1, e2, e3, e4, e5⟩ := blockIndices0 t
  funext (j : S5000x128.Idx)
  obtain ⟨p, q, rfl⟩ : ∃ (p : Fin 5000) (q : Fin 128), j = ix2 p q := ⟨j 0, j 1, eq_ix2 j⟩
  show mm (m := 5000) (k := 256) (n := 128) (iblk0 V c 0 t) (iblk0 V c 1 t) (ix2 p q)
    = mm (m := 100000) (k := 256) (n := 128) (V c main_arg0) (V c main_arg2) (((cfg0.win 2).blk t).view.emb (ix2 p q))
  obtain ⟨r, n, he⟩ : ∃ (r : Fin 100000) (n : Fin 128), ((cfg0.win 2).blk t).view.emb (ix2 p q) = ix2 r n := ⟨_, _, eq_ix2 _⟩
  have hr : r.val = win0_2.index t (0 : Fin 2) * 5000 + 1 * p.val := (congrArg (fun z : S100000x128.Idx => (z 0).val) he).symm
  have hn : n.val = win0_2.index t (1 : Fin 2) * 128 + 1 * q.val := (congrArg (fun z : S100000x128.Idx => (z 1).val) he).symm
  rw [he, mm_apply, mm_apply]
  refine Finset.sum_congr rfl fun i _ => ?_
  have h0 : iblk0 V c 0 t (ix2 p i) = V c main_arg0 (ix2 r i) := by
    show V c main_arg0 (((cfg0.win 0).blk t).view.emb (ix2 p i)) = _
    have e : ((cfg0.win 0).blk t).view.emb (ix2 p i) = ix2 r i := by
      funext a; apply Fin.ext
      match a with
      | ⟨0, _⟩ => show win0_0.index t (0 : Fin 2) * 5000 + 1 * p.val = r.val; omega
      | ⟨1, _⟩ => show win0_0.index t (1 : Fin 2) * 256 + 1 * i.val = i.val; omega
    rw [e]
  have h1 : iblk0 V c 1 t (ix2 i q) = V c main_arg2 (ix2 i n) := by
    show V c main_arg2 (((cfg0.win 1).blk t).view.emb (ix2 i q)) = _
    have e : ((cfg0.win 1).blk t).view.emb (ix2 i q) = ix2 i n := by
      funext a; apply Fin.ext
      match a with
      | ⟨0, _⟩ => show win0_1.index t (0 : Fin 2) * 256 + 1 * i.val = i.val; omega
      | ⟨1, _⟩ => show win0_1.index t (1 : Fin 2) * 128 + 1 * q.val = n.val; omega
    rw [e]
  rw [h0, h1]

/-- An index of the result is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row r of the result is written back by point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block0]
  obtain ⟨-, -, -, -, e4, e5⟩ := blockIndices0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array after the region: the product of the two arrays the region found. -/
theorem product0 (c : Dev nD) :
    (dat0 V c).arrAt 2 cfg0.N = mm (V c main_arg0) (V c main_arg2) :=
  (dat0 V c).arrAt_eq_of_cover 2 (mm (V c main_arg0) (V c main_arg2)) (fun t _ => flushed0 V c t) covered0

end Region0

/-! ## Region 1: a [5000, 128] row block times the whole [128, 64] weight, twenty blocks down 100000 rows -/

section Region1

/-- The body's stored value is the product of the two loaded blocks: the casts to the narrower format are the identity on
    the extended reals, and a product into the zero accumulator is the 128-term sum. -/
theorem payload1 (x0 : Vec Ideal S5000x128 .f32) (x1 : Vec Ideal S128x64 .f32) : k1_pay1 x0 x1 = mm x0 x1 := by
  unfold k1_pay1
  rw [shapeCast_self]
  exact tileMm_eq dot_S5000x128_S128x64_S5000x64_1_0_0_1_n_n dot_S5000x128_S128x64_S5000x64_1_0_0_1_n_n_wf rfl
    (truncf .bf16 x0 bitsLt_bf16_f32) x1 bitsLt_bf16_f32

/-- The printed index maps over the grid: point t takes row block t of the left matrix and of the result, and the one
    block of the weight. -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the two arrays as the region finds them: row t·5000 + p of the
    result needs row t·5000 + p of the left matrix only, and all of the weight. -/
theorem flushed1 (c : Dev nD) (t : Fin cfg1.N) :
    (dat1 V c).flushed 2 t = ((cfg1.win 2).blk t).view.read (Elt Ideal) (mm (V c main_v48) (V c main_arg4)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128x64) zeros2]
  rw [payload1]
  obtain ⟨e0, e1, e2, e3, e4, e5⟩ := blockIndices1 t
  funext (j : S5000x64.Idx)
  obtain ⟨p, q, rfl⟩ : ∃ (p : Fin 5000) (q : Fin 64), j = ix2 p q := ⟨j 0, j 1, eq_ix2 j⟩
  show mm (m := 5000) (k := 128) (n := 64) (iblk1 V c 0 t) (iblk1 V c 1 t) (ix2 p q)
    = mm (m := 100000) (k := 128) (n := 64) (V c main_v48) (V c main_arg4) (((cfg1.win 2).blk t).view.emb (ix2 p q))
  obtain ⟨r, n, he⟩ : ∃ (r : Fin 100000) (n : Fin 64), ((cfg1.win 2).blk t).view.emb (ix2 p q) = ix2 r n := ⟨_, _, eq_ix2 _⟩
  have hr : r.val = win1_2.index t (0 : Fin 2) * 5000 + 1 * p.val := (congrArg (fun z : S100000x64.Idx => (z 0).val) he).symm
  have hn : n.val = win1_2.index t (1 : Fin 2) * 64 + 1 * q.val := (congrArg (fun z : S100000x64.Idx => (z 1).val) he).symm
  rw [he, mm_apply, mm_apply]
  refine Finset.sum_congr rfl fun i _ => ?_
  have h0 : iblk1 V c 0 t (ix2 p i) = V c main_v48 (ix2 r i) := by
    show V c main_v48 (((cfg1.win 0).blk t).view.emb (ix2 p i)) = _
    have e : ((cfg1.win 0).blk t).view.emb (ix2 p i) = ix2 r i := by
      funext a; apply Fin.ext
      match a with
      | ⟨0, _⟩ => show win1_0.index t (0 : Fin 2) * 5000 + 1 * p.val = r.val; omega
      | ⟨1, _⟩ => show win1_0.index t (1 : Fin 2) * 128 + 1 * i.val = i.val; omega
    rw [e]
  have h1 : iblk1 V c 1 t (ix2 i q) = V c main_arg4 (ix2 i n) := by
    show V c main_arg4 (((cfg1.win 1).blk t).view.emb (ix2 i q)) = _
    have e : ((cfg1.win 1).blk t).view.emb (ix2 i q) = ix2 i n := by
      funext a; apply Fin.ext
      match a with
      | ⟨0, _⟩ => show win1_1.index t (0 : Fin 2) * 128 + 1 * i.val = i.val; omega
      | ⟨1, _⟩ => show win1_1.index t (1 : Fin 2) * 64 + 1 * q.val = n.val; omega
    rw [e]
  rw [h0, h1]

/-- An index of the result is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v76).slice (win1_2.rect t)).set ↔ _
  rw [View.set_slice_whole, Rect.mem_set_unit]
  exact Iff.rfl

/-- Row r of the result is written back by point r / 5000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_block1]
  obtain ⟨-, -, -, -, e4, e5⟩ := blockIndices1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- The result array after the region: the product of the two arrays the region found. -/
theorem product1 (c : Dev nD) :
    (dat1 V c).arrAt 2 cfg1.N = mm (V c main_v48) (V c main_arg4) :=
  (dat1 V c).arrAt_eq_of_cover 2 (mm (V c main_v48) (V c main_arg4)) (fun t _ => flushed1 V c t) covered1

end Region1

end Cert.KernelIdeal.Product

end
-- ==== Proof.Stretch0.lean ====
/-
  The host operations before the first launch, run from any contents.

  They read the edge list and nothing else: the two edge rows, the endpoint vectors with the self loops, the degree
  counted at the destinations with its positivity mask and its power -1/2, the node weights chosen by the mask, and the
  edge weights gathered from them. The six arguments pass through untouched. The edge weights are read in two steps, so
  that the endpoint vectors enter the second step as given values: first what the opening operations leave, then the
  choice by the mask and the two gathers from those.
-/
import proofs.«138502_j22471268892879_1_alg».proof.Proof.Gen.KernelIdeal.Frame
import proofs.«138502_j22471268892879_1_alg».proof.Proof.Chain
import Idealize.ShloMosaic.PureOps.Ideal

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen Cert.Gcn

variable (Vb : Valuation τ sig (Elt Ideal))

/-- The host operations before the first launch. -/
abbrev stretch0 : Valuation τ sig (Elt Ideal) := after hostOps0_2 (after hostOps0_1 (after hostOps0 Vb))

/-! ## What the opening operations leave -/

theorem first_sources : after hostOps0 Vb (Proc.devRef .tc main_v5) = sources (Vb (Proc.devRef .tc main_arg1)) := by
  after_results_simp; rfl
theorem first_dests : after hostOps0 Vb (Proc.devRef .tc main_v6) = dests (Vb (Proc.devRef .tc main_arg1)) := by
  after_results_simp; rfl
theorem first_positive : after hostOps0 Vb (Proc.devRef .tc main_v12) = positiveDegree (dests (Vb (Proc.devRef .tc main_arg1))) := by
  after_results_simp; rfl
theorem first_power : after hostOps0 Vb (Proc.devRef .tc main_v14) = degreePower (dests (Vb (Proc.devRef .tc main_arg1))) := by
  after_results_simp; rfl
theorem first_zero : after hostOps0 Vb (Proc.devRef .tc main_cst_3) = constant (F := Ideal) S_ .f32 0x00000000#32 := by
  after_results_simp

/-! ## The edge weights from those -/

theorem weight_from : after hostOps0_2 (after hostOps0_1 Vb) (Proc.devRef .tc main_v30)
    = weightFrom (Vb (Proc.devRef .tc main_v12)) (Vb (Proc.devRef .tc main_v14)) (Vb (Proc.devRef .tc main_cst_3))
        (Vb (Proc.devRef .tc main_v5)) (Vb (Proc.devRef .tc main_v6)) := by
  after_results_simp; rfl

theorem s0_weight : stretch0 Vb (Proc.devRef .tc main_v30)
    = edgeWeight (sources (Vb (Proc.devRef .tc main_arg1))) (dests (Vb (Proc.devRef .tc main_arg1))) := by
  refine (weight_from (after hostOps0 Vb)).trans ?_
  rw [first_positive, first_power, first_zero, first_sources, first_dests]
  rfl

/-! ## The values later stretches read, and the arguments -/

theorem s0_row0 : stretch0 Vb (Proc.devRef .tc main_v1) = edgeRow0 (Vb (Proc.devRef .tc main_arg1)) := by
  after_results_simp; rfl
theorem s0_row1 : stretch0 Vb (Proc.devRef .tc main_v3) = edgeRow1 (Vb (Proc.devRef .tc main_arg1)) := by
  after_results_simp; rfl
theorem s0_sources : stretch0 Vb (Proc.devRef .tc main_v5) = sources (Vb (Proc.devRef .tc main_arg1)) := by
  after_results_simp; rfl
theorem s0_dests : stretch0 Vb (Proc.devRef .tc main_v6) = dests (Vb (Proc.devRef .tc main_arg1)) := by
  after_results_simp; rfl
theorem s0_arg0 : stretch0 Vb (Proc.devRef .tc main_arg0) = Vb (Proc.devRef .tc main_arg0) := by after_results_simp
theorem s0_arg2 : stretch0 Vb (Proc.devRef .tc main_arg2) = Vb (Proc.devRef .tc main_arg2) := by after_results_simp
theorem s0_arg3 : stretch0 Vb (Proc.devRef .tc main_arg3) = Vb (Proc.devRef .tc main_arg3) := by after_results_simp
theorem s0_arg4 : stretch0 Vb (Proc.devRef .tc main_arg4) = Vb (Proc.devRef .tc main_arg4) := by after_results_simp
theorem s0_arg5 : stretch0 Vb (Proc.devRef .tc main_arg5) = Vb (Proc.devRef .tc main_arg5) := by after_results_simp

end Cert.KernelIdeal.Stretch0

end
-- ==== Proof.Stretch1a.lean ====
/-
  The hidden layer, from the host operations between the two launches, run from any contents.

  The first twenty take the first launch's result, the endpoint vectors, the edge weights and the bias as found and apply
  the width-128 layer; the next three take the maximum with zero; the rest do not touch that buffer.
-/
import proofs.«138502_j22471268892879_1_alg».proof.Proof.Gen.KernelIdeal.Frame
import proofs.«138502_j22471268892879_1_alg».proof.Proof.Chain
import Idealize.ShloMosaic.PureOps.Ideal

set_option maxRecDepth 16384

noncomputable section

namespace Cert.KernelIdeal.Stretch1a

open Idealize.ShloMosaic Idealize.ShloMosaic.TcCoe Idealize.SL.Sem Idealize.ShloMosaic.StableHlo
open Cert.KernelIdeal Cert.KernelIdeal.Gen Cert.Gcn

variable (Vb : Valuation τ sig (Elt Ideal))

/-- The width-128 layer. -/
theorem layer_from : after hostOps1 Vb (Proc.devRef .tc main_v47)
    = layer128 (Vb (Proc.devRef .tc main_v5)) (Vb (Proc.devRef .tc main_v6)) (Vb (Proc.devRef .tc main_v30))
        (Vb (Proc.devRef .tc main_arg3)) (Vb (Proc.devRef .tc main_v31)) := by
  after_results_simp; rfl

/-- The rectifier, of the layer as found. -/
theorem rectifier_from : after hostOps1_1 Vb (Proc.devRef .tc main_v48) = rectify (Vb (Proc.devRef .tc main_v47)) := by
  after_results_simp; rfl

theorem hidden_from : after hostOps1_1 (after hostOps1 Vb) (Proc.devRef .tc main_v48)
    = rectify (layer128 (Vb (Proc.devRef .tc main_v5)) (Vb (Proc.devRef .tc main_v6)) (Vb (Proc.devRef .tc main_v30))
        (Vb (Proc.devRef .tc main_arg3)) (Vb (Proc.devRef .tc main_v31))) := by
  refine (rectifier_from (after hostOps1 Vb)).trans ?_
  rw [layer_from]

/-- The later operations of the stretch leave the hidden layer alone. -/
theorem hidden_kept : after hostOps1_4 (after hostOps1_3 (after hostOps1_2 Vb)) (Proc.devRef .tc main_v48) = Vb (Proc.devRef .tc main_v48) := by
  after_results_simp

theorem s1_hidden : after hostOps1_4 (after hostOps1_3 (after hostOps1_2 (after hostOps1_1 (after hostOps1 Vb)))) (Proc.devRef .tc main_v48)
    = rectify (layer128 (Vb (Proc.devRef .tc main_v5)) (Vb (Proc.devRef .tc main_v6)) (Vb (Proc.devRef .tc main_v30))
        (Vb (Proc.devRef .tc main_arg3)) (Vb (Proc.devRef .tc main_v31))) :=
  (hidden_kept (after hostOps1_1 (after hostOps1 Vb))).trans (hidden_from Vb)

end Cert.KernelIdeal.Stretch1a

end
-- ==== Proof.Stretch1b.lean ====
/-
  The endpoint vectors and edge weights for the second layer, from the host operations between the two launches, run from
  any contents.

  The width-128 layer's operations leave the two edge rows alone. The next sixteen build, from the edge rows as found,
  the endpoint vectors with the self loops, the degree counted at the destinations, its positivity mask and its power
  -1/2. The last twenty-two choose the node weights by the mask and gather the edge weights, from those values as found.
  The last two arguments pass through untouched.
-/
import proofs.«138502_j22471268892879_1_alg».proof.Proof.Gen.KernelIdeal.Frame
import proofs.«138502_j22471268892879_1_alg».proof.Proof.Chain
import Idealize.ShloMosaic.PureOps.Ideal

set_option maxRecDepth 16384

noncomputable section

namespace Cert.KernelIdeal.Stretch1b

open Idealize.ShloMosaic Idealize.ShloMosaic.TcCoe Idealize.SL.Sem Idealize.ShloMosaic.StableHlo
open Cert.KernelIdeal Cert.KernelIdeal.Gen Cert.Gcn

variable (Vb : Valuation τ sig (Elt Ideal))

/-- The host operations between the two launches. -/
abbrev stretch1 : Valuation τ sig (Elt Ideal) :=
  after hostOps1_4 (after hostOps1_3 (after hostOps1_2 (after hostOps1_1 (after hostOps1 Vb))))

/-! ## The layer's operations leave the edge rows alone -/

theorem row0_kept : after hostOps1_1 (after hostOps1 Vb) (Proc.devRef .tc main_v1) = Vb (Proc.devRef .tc main_v1) := by after_results_simp
theorem row1_kept : after hostOps1_1 (after hostOps1 Vb) (Proc.devRef .tc main_v3) = Vb (Proc.devRef .tc main_v3) := by after_results_simp

/-! ## The endpoint vectors, the degree's mask and power -/

theorem open_sources : after hostOps1_2 Vb (Proc.devRef .tc main_v50) = withLoops (Vb (Proc.devRef .tc main_v1)) := by
  after_results_simp; rfl
theorem open_dests : after hostOps1_2 Vb (Proc.devRef .tc main_v51) = withLoops (Vb (Proc.devRef .tc main_v3)) := by
  after_results_simp; rfl
theorem open_positive : after hostOps1_2 Vb (Proc.devRef .tc main_v57) = positiveDegree (withLoops (Vb (Proc.devRef .tc main_v3))) := by
  after_results_simp; rfl
theorem open_power : after hostOps1_2 Vb (Proc.devRef .tc main_v59) = degreePower (withLoops (Vb (Proc.devRef .tc main_v3))) := by
  after_results_simp; rfl
theorem open_zero : after hostOps1_2 Vb (Proc.devRef .tc main_cst_14) = constant (F := Ideal) S_ .f32 0x00000000#32 := by
  after_results_simp

/-! ## The edge weights from those, and what the last operations leave alone -/

theorem weight_from : after hostOps1_4 (after hostOps1_3 Vb) (Proc.devRef .tc main_v75)
    = weightFrom (Vb (Proc.devRef .tc main_v57)) (Vb (Proc.devRef .tc main_v59)) (Vb (Proc.devRef .tc main_cst_14))
        (Vb (Proc.devRef .tc main_v50)) (Vb (Proc.devRef .tc main_v51)) := by
  after_results_simp; rfl
theorem sources_kept : after hostOps1_4 (after hostOps1_3 Vb) (Proc.devRef .tc main_v50) = Vb (Proc.devRef .tc main_v50) := by after_results_simp
theorem dests_kept : after hostOps1_4 (after hostOps1_3 Vb) (Proc.devRef .tc main_v51) = Vb (Proc.devRef .tc main_v51) := by after_results_simp

/-! ## The whole stretch -/

theorem s1_sources : stretch1 Vb (Proc.devRef .tc main_v50) = withLoops (Vb (Proc.devRef .tc main_v1)) := by
  refine (sources_kept (after hostOps1_2 (after hostOps1_1 (after hostOps1 Vb)))).trans ?_
  refine (open_sources (after hostOps1_1 (after hostOps1 Vb))).trans ?_
  rw [row0_kept]
theorem s1_dests : stretch1 Vb (Proc.devRef .tc main_v51) = withLoops (Vb (Proc.devRef .tc main_v3)) := by
  refine (dests_kept (after hostOps1_2 (after hostOps1_1 (after hostOps1 Vb)))).trans ?_
  refine (open_dests (after hostOps1_1 (after hostOps1 Vb))).trans ?_
  rw [row1_kept]
theorem s1_weight : stretch1 Vb (Proc.devRef .tc main_v75)
    = edgeWeight (withLoops (Vb (Proc.devRef .tc main_v1))) (withLoops (Vb (Proc.devRef .tc main_v3))) := by
  refine (weight_from (after hostOps1_2 (after hostOps1_1 (after hostOps1 Vb)))).trans ?_
  rw [open_positive, open_power, open_zero, open_sources, open_dests, row0_kept, row1_kept]
  rfl
theorem s1_arg4 : stretch1 Vb (Proc.devRef .tc main_arg4) = Vb (Proc.devRef .tc main_arg4) := by after_results_simp
theorem s1_arg5 : stretch1 Vb (Proc.devRef .tc main_arg5) = Vb (Proc.devRef .tc main_arg5) := by after_results_simp

end Cert.KernelIdeal.Stretch1b

end
-- ==== Proof.Stretch2.lean ====
/-
  The host operations after the second launch, run from any contents: the width-64 layer applied to the second launch's
  result, from the endpoint vectors, the edge weights and the bias as found.
-/
import proofs.«138502_j22471268892879_1_alg».proof.Proof.Gen.KernelIdeal.Frame
import proofs.«138502_j22471268892879_1_alg».proof.Proof.Chain
import Idealize.ShloMosaic.PureOps.Ideal

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen Cert.Gcn

variable (Vb : Valuation τ sig (Elt Ideal))

/-- The host operations after the second launch. -/
abbrev stretch2 : Valuation τ sig (Elt Ideal) := after hostOps2 Vb

theorem s2_output : stretch2 Vb (Proc.devRef .tc main_v92)
    = layer64 (Vb (Proc.devRef .tc main_v50)) (Vb (Proc.devRef .tc main_v51)) (Vb (Proc.devRef .tc main_v75))
        (Vb (Proc.devRef .tc main_arg5)) (Vb (Proc.devRef .tc main_v76)) := by
  after_results_simp; rfl

end Cert.KernelIdeal.Stretch2

end
-- ==== Proof.KernelStages.lean ====
/-
  The idealized kernel program's result as the graph convolution of its two launches' products.

  The program's buffers are followed through its eleven segments. A stretch of host operations, run from any contents,
  leaves each buffer it writes at its operations' value of what it read (Proof/Stretch0.lean, Stretch1a.lean, Stretch1b.lean, Stretch2.lean):
  the first stretch computes the edge rows, the endpoint vectors with self loops and the edge weights from the edge list;
  the second applies the width-128 layer and the rectifier to the first launch's result and computes the endpoint vectors
  and edge weights again; the third applies the width-64 layer to the second launch's result. A launch replaces its result
  array by the product of the two arrays it was entered with (Proof/RegionProduct.lean) and leaves every other buffer
  alone. Chaining these from the launch memory: the result buffer ends at the output layer of
  (the hidden layer of x · W1) · W2.
-/
import proofs.«138502_j22471268892879_1_alg».proof.Proof.Gen.KernelIdeal.Frame
import proofs.«138502_j22471268892879_1_alg».proof.Proof.Chain
import proofs.«138502_j22471268892879_1_alg».proof.Proof.RegionProduct
import proofs.«138502_j22471268892879_1_alg».proof.Proof.Stretch0
import proofs.«138502_j22471268892879_1_alg».proof.Proof.Stretch1a
import proofs.«138502_j22471268892879_1_alg».proof.Proof.Stretch1b
import proofs.«138502_j22471268892879_1_alg».proof.Proof.Stretch2

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.Gcn Cert.Layers
open Cert.KernelIdeal.Stretch0 Cert.KernelIdeal.Stretch1a Cert.KernelIdeal.Stretch1b Cert.KernelIdeal.Stretch2

/-! ## The contents at the boundaries, from the launch memory -/

variable (m : (ℓ : Loc nD τ sig) → Buf (Elt Ideal) ℓ) (ρ : Dev nD → PrngReg) (c : Dev nD)

/-! ### After the first launch -/

theorem exit0_row0 : W4 m ρ c (Proc.devRef .tc main_v1) = edgeRow0 (m ((c.tc : Thread nD τ).loc main_arg1)) :=
  (W4_of_ne m ρ c main_v1 (by decide)).trans (s0_row0 (W0 m ρ c))
theorem exit0_row1 : W4 m ρ c (Proc.devRef .tc main_v3) = edgeRow1 (m ((c.tc : Thread nD τ).loc main_arg1)) :=
  (W4_of_ne m ρ c main_v3 (by decide)).trans (s0_row1 (W0 m ρ c))
theorem exit0_sources : W4 m ρ c (Proc.devRef .tc main_v5) = sources (m ((c.tc : Thread nD τ).loc main_arg1)) :=
  (W4_of_ne m ρ c main_v5 (by decide)).trans (s0_sources (W0 m ρ c))
theorem exit0_dests : W4 m ρ c (Proc.devRef .tc main_v6) = dests (m ((c.tc : Thread nD τ).loc main_arg1)) :=
  (W4_of_ne m ρ c main_v6 (by decide)).trans (s0_dests (W0 m ρ c))
theorem exit0_weight : W4 m ρ c (Proc.devRef .tc main_v30)
    = edgeWeight (sources (m ((c.tc : Thread nD τ).loc main_arg1))) (dests (m ((c.tc : Thread nD τ).loc main_arg1))) :=
  (W4_of_ne m ρ c main_v30 (by decide)).trans (s0_weight (W0 m ρ c))
theorem exit0_arg3 : W4 m ρ c (Proc.devRef .tc main_arg3) = m ((c.tc : Thread nD τ).loc main_arg3) :=
  (W4_of_ne m ρ c main_arg3 (by decide)).trans (s0_arg3 (W0 m ρ c))
theorem exit0_arg4 : W4 m ρ c (Proc.devRef .tc main_arg4) = m ((c.tc : Thread nD τ).loc main_arg4) :=
  (W4_of_ne m ρ c main_arg4 (by decide)).trans (s0_arg4 (W0 m ρ c))
theorem exit0_arg5 : W4 m ρ c (Proc.devRef .tc main_arg5) = m ((c.tc : Thread nD τ).loc main_arg5) :=
  (W4_of_ne m ρ c main_arg5 (by decide)).trans (s0_arg5 (W0 m ρ c))

/-- The first launch leaves x · W1 in its result array: it was entered with the arguments x and W1 untouched. -/
theorem exit0_product : W4 m ρ c (Proc.devRef .tc main_v31)
    = mm (m ((c.tc : Thread nD τ).loc main_arg0)) (m ((c.tc : Thread nD τ).loc main_arg2)) := by
  have e0 : V3 m ρ c main_arg0 = m ((c.tc : Thread nD τ).loc main_arg0) := s0_arg0 (W0 m ρ c)
  have e2 : V3 m ρ c main_arg2 = m ((c.tc : Thread nD τ).loc main_arg2) := s0_arg2 (W0 m ρ c)
  refine (W4_arr m ρ c 2).trans ((Product.product0 (V3 m ρ) c).trans ?_)
  rw [e0, e2]

/-! ### Before the second launch -/

theorem entry1_hidden : W9 m ρ c (Proc.devRef .tc main_v48)
    = hiddenLayer (m ((c.tc : Thread nD τ).loc main_arg1)) (m ((c.tc : Thread nD τ).loc main_arg3))
        (mm (m ((c.tc : Thread nD τ).loc main_arg0)) (m ((c.tc : Thread nD τ).loc main_arg2))) := by
  have h := s1_hidden (W4 m ρ c)
  rw [exit0_sources, exit0_dests, exit0_weight, exit0_arg3, exit0_product] at h
  exact h
theorem entry1_sources : W9 m ρ c (Proc.devRef .tc main_v50) = sources (m ((c.tc : Thread nD τ).loc main_arg1)) := by
  have h := s1_sources (W4 m ρ c)
  rw [exit0_row0] at h
  exact h
theorem entry1_dests : W9 m ρ c (Proc.devRef .tc main_v51) = dests (m ((c.tc : Thread nD τ).loc main_arg1)) := by
  have h := s1_dests (W4 m ρ c)
  rw [exit0_row1] at h
  exact h
theorem entry1_weight : W9 m ρ c (Proc.devRef .tc main_v75)
    = edgeWeight (sources (m ((c.tc : Thread nD τ).loc main_arg1))) (dests (m ((c.tc : Thread nD τ).loc main_arg1))) := by
  have h := s1_weight (W4 m ρ c)
  rw [exit0_row0, exit0_row1] at h
  exact h
theorem entry1_arg4 : W9 m ρ c (Proc.devRef .tc main_arg4) = m ((c.tc : Thread nD τ).loc main_arg4) :=
  (s1_arg4 (W4 m ρ c)).trans (exit0_arg4 m ρ c)
theorem entry1_arg5 : W9 m ρ c (Proc.devRef .tc main_arg5) = m ((c.tc : Thread nD τ).loc main_arg5) :=
  (s1_arg5 (W4 m ρ c)).trans (exit0_arg5 m ρ c)

/-! ### After the second launch -/

theorem exit1_sources : W10 m ρ c (Proc.devRef .tc main_v50) = sources (m ((c.tc : Thread nD τ).loc main_arg1)) :=
  (W10_of_ne m ρ c main_v50 (by decide)).trans (entry1_sources m ρ c)
theorem exit1_dests : W10 m ρ c (Proc.devRef .tc main_v51) = dests (m ((c.tc : Thread nD τ).loc main_arg1)) :=
  (W10_of_ne m ρ c main_v51 (by decide)).trans (entry1_dests m ρ c)
theorem exit1_weight : W10 m ρ c (Proc.devRef .tc main_v75)
    = edgeWeight (sources (m ((c.tc : Thread nD τ).loc main_arg1))) (dests (m ((c.tc : Thread nD τ).loc main_arg1))) :=
  (W10_of_ne m ρ c main_v75 (by decide)).trans (entry1_weight m ρ c)
theorem exit1_arg5 : W10 m ρ c (Proc.devRef .tc main_arg5) = m ((c.tc : Thread nD τ).loc main_arg5) :=
  (W10_of_ne m ρ c main_arg5 (by decide)).trans (entry1_arg5 m ρ c)

/-- The second launch leaves (hidden layer) · W2 in its result array. -/
theorem exit1_product : W10 m ρ c (Proc.devRef .tc main_v76)
    = mm (hiddenLayer (m ((c.tc : Thread nD τ).loc main_arg1)) (m ((c.tc : Thread nD τ).loc main_arg3))
          (mm (m ((c.tc : Thread nD τ).loc main_arg0)) (m ((c.tc : Thread nD τ).loc main_arg2))))
        (m ((c.tc : Thread nD τ).loc main_arg4)) := by
  have e0 : V9 m ρ c main_v48 = _ := entry1_hidden m ρ c
  have e4 : V9 m ρ c main_arg4 = _ := entry1_arg4 m ρ c
  refine (W10_arr m ρ c 2).trans ((Product.product1 (V9 m ρ) c).trans ?_)
  rw [e0, e4]

/-! ### At the end -/

/-- The network's value of the six arguments as launched: the output layer of (the hidden layer of x · W1) · W2, the
    products plain matrix products. -/
def endValue (c : Dev nD) : Buf (Elt Ideal) ((c.tc : Thread nD τ).loc main_v92) :=
  outputLayer (m ((c.tc : Thread nD τ).loc main_arg1)) (m ((c.tc : Thread nD τ).loc main_arg5))
    (mm (hiddenLayer (m ((c.tc : Thread nD τ).loc main_arg1)) (m ((c.tc : Thread nD τ).loc main_arg3))
          (mm (m ((c.tc : Thread nD τ).loc main_arg0)) (m ((c.tc : Thread nD τ).loc main_arg2))))
        (m ((c.tc : Thread nD τ).loc main_arg4)))

/-- The result buffer after the last stretch: the output layer of the second launch's product. -/
theorem result : W11 m ρ c (Proc.devRef .tc main_v92) = endValue m c := by
  have h := s2_output (W10 m ρ c)
  rw [exit1_sources, exit1_dests, exit1_weight, exit1_arg5, exit1_product] at h
  exact h

end Cert.KernelIdeal.Stages

end
-- ==== Proof.lean ====
/-
  A two-layer graph convolution whose two dense products run as tiled launches, against the same network with the
  products taken by the host.

  Both programs compute, from node features x [100000, 256], an edge list [2, 1600000], weights W1 [256, 128],
  W2 [128, 64] and biases b1, b2:

      h   = rectify (layer128 (x · W1) + b1)            out = layer64 (h · W2) + b2

  where a layer gathers each edge's source row, scales it by the edge's weight degree(s)^(-1/2) · degree(d)^(-1/2)
  (self loops added, weight 0 where a degree is 0), and sums the rows arriving at each destination. All of that is the same
  sequence of host operations in both programs, literal for literal. They differ in the two products only: the reference
  takes each as one general dot product; the kernel program takes each in twenty launches' worth of grid points, point t
  multiplying rows 5000·t … 5000·t + 4999 by the whole weight (both cast to a narrower float format first) into a zero
  accumulator and writing those rows of the result.

  On the extended reals the casts are the identity and each result entry (r, n) is written once, by point r / 5000, as
  the sum over k of left(r, k) · weight(k, n): each launch's result array is the plain matrix product of what it was
  entered with (Proof/RegionProduct.lean), which is also what the host's dot product is there. The same k-term sum stands
  on both sides, so no entry needs to be finite and the precondition is not used. The shared host operations are carried
  as named functions (Proof/Chain.lean) and never opened: the kernel program's buffers are followed through its eleven
  segments to the output layer of (the hidden layer of x · W1) · W2 (Proof/KernelRun.lean, Proof/KernelStages.lean), and
  the reference's composed result term is read as the same expression (Proof/RefValue.lean).

  The three frames: the two kernel programs' are their launch-by-launch frame proofs; the reference has no launch, and its
  frame is its run with the result forgotten. The idealization rewrote no operation, so there is nothing to preserve.
-/
import proofs.«138502_j22471268892879_1_alg».proof.Defs
import proofs.«138502_j22471268892879_1_alg».proof.Proof.Gen.Kernel
import proofs.«138502_j22471268892879_1_alg».proof.Proof.Gen.Kernel.Skeleton
import proofs.«138502_j22471268892879_1_alg».proof.Proof.Gen.Kernel.Launch
import proofs.«138502_j22471268892879_1_alg».proof.Proof.Gen.Kernel.Points
import proofs.«138502_j22471268892879_1_alg».proof.Proof.Gen.Kernel.Frame
import proofs.«138502_j22471268892879_1_alg».proof.Proof.Gen.KernelIdeal
import proofs.«138502_j22471268892879_1_alg».proof.Proof.Gen.KernelIdeal.Skeleton
import proofs.«138502_j22471268892879_1_alg».proof.Proof.Gen.KernelIdeal.Launch
import proofs.«138502_j22471268892879_1_alg».proof.Proof.Gen.KernelIdeal.Points
import proofs.«138502_j22471268892879_1_alg».proof.Proof.Gen.KernelIdeal.Frame
import proofs.«138502_j22471268892879_1_alg».proof.Proof.Gen.ReferenceIdeal
import proofs.«138502_j22471268892879_1_alg».proof.Proof.RefRunPatched
import proofs.«138502_j22471268892879_1_alg».proof.Proof.RefValue
import proofs.«138502_j22471268892879_1_alg».proof.Proof.KernelRun
import proofs.«138502_j22471268892879_1_alg».proof.Proof.KernelStages
import proofs.«138502_j22471268892879_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches nothing: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization is the program's own text read on the extended reals: no rewrite to justify. -/
theorem preserves : Cert.preserves_Kernel_KernelIdeal := trivial

/-- From memories agreeing on the six arguments both programs end with the result at the output layer of
    (the hidden layer of x · W1) · W2, the products plain matrix products of extended reals. -/
theorem algebraic : Cert.algebraic_KernelIdeal_ReferenceIdeal := by
  intro m ρ m' ρ' _ hagree
  refine ⟨fun c => Cert.KernelIdeal.Stages.endValue m c, ?_, ?_⟩
  · exact (θ_run Cert.KernelIdeal.defs _ _).mono
      (fun r h c => ⟨(h c).1.trans (Cert.KernelIdeal.Stages.result m ρ c), (h c).2⟩)
      (Cert.KernelIdeal.WholeRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5⟩ := hagree c
    rw [Cert.ReferenceIdeal.RefValue.result_products, a0, a1, a2, a3, a4, a5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
